-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64 : Shape := ⟨3, ![8, 256, 64]⟩
abbrev S256x64 : Shape := ⟨2, ![256, 64]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩

class Facts : Prop where
  bcast_S_S8x256x64 : S_.BroadcastsInDim S8x256x64 (![] : Fin 0 → Fin S8x256x64.rank)
  reducesTo_S8x256x64_S_d0_1_2 : S8x256x64.ReducesTo [0, 1, 2] S_
  h_S_ : 0 < S_.numel
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S1x256 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg7 main_v33

def fn {F : FTy → Type} [FloatOps F] (main_arg0 : FVec F S8x256x64 .f32) (main_arg1 : FVec F S8x256x64 .f32) (main_arg2 : FVec F S256x64 .f32) (main_arg3 : FVec F S256 .f32) (main_arg4 : FVec F S256x256 .f32) (main_arg5 : FVec F S256 .f32) (main_arg6 : FVec F S1x256 .f32) (main_arg7 : FVec F S1 .f32) : IVec S_ 1 :=
  let main_v0 : FVec F S8x256x64 .f32 := Host.absf main_arg0
  let main_cst : FVec F S_ .f32 := constant S_ .f32 0x7F800000#32
  let main_v1 : FVec F S8x256x64 .f32 := broadcastInDim S8x256x64 ![] bcast_S_S8x256x64 main_cst
  let main_v2 : IVec S8x256x64 1 := cmpf .olt main_v0 main_v1
  let main_c : IVec S_ 1 := constantI S_ 1 1#1
  let main_v3 : IVec S_ 1 := (fun x v => Host.reduce IntOp.andi x v reducesTo_S8x256x64_S_d0_1_2 h_S_) main_v2 main_c
  let main_v4 : FVec F S8x256x64 .f32 := Host.absf main_arg1
  let main_cst_0 : FVec F S_ .f32 := constant S_ .f32 0x7F800000#32
  let main_v5 : FVec F S8x256x64 .f32 := broadcastInDim S8x256x64 ![] bcast_S_S8x256x64 main_cst_0
  let main_v6 : IVec S8x256x64 1 := cmpf .olt main_v4 main_v5
  let main_c_1 : IVec S_ 1 := constantI S_ 1 1#1
  let main_v7 : IVec S_ 1 := (fun x v => Host.reduce IntOp.andi x v reducesTo_S8x256x64_S_d0_1_2 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S8x256x64 : Shape := ⟨3, ![8, 256, 64]⟩
abbrev S256x64 : Shape := ⟨2, ![256, 64]⟩
abbrev S256 : Shape := ⟨1, ![256]⟩
abbrev S256x256 : Shape := ⟨2, ![256, 256]⟩
abbrev S1x256 : Shape := ⟨2, ![1, 256]⟩
abbrev S1 : Shape := ⟨1, ![1]⟩
abbrev S8x256x256 : Shape := ⟨3, ![8, 256, 256]⟩
abbrev S1x16x64 : Shape := ⟨3, ![1, 16, 64]⟩
abbrev S1x256x64 : Shape := ⟨3, ![1, 256, 64]⟩
abbrev S1x16x256 : Shape := ⟨3, ![1, 16, 256]⟩
abbrev S16x64 : Shape := ⟨2, ![16, 64]⟩
abbrev S16x1x64 : Shape := ⟨3, ![16, 1, 64]⟩
abbrev S16x256x64 : Shape := ⟨3, ![16, 256, 64]⟩
abbrev S4096x64 : Shape := ⟨2, ![4096, 64]⟩
abbrev S64x256 : Shape := ⟨2, ![64, 256]⟩
abbrev S4096x256 : Shape := ⟨2, ![4096, 256]⟩
abbrev S256x1 : Shape := ⟨2, ![256, 1]⟩
abbrev S4096x1 : Shape := ⟨2, ![4096, 1]⟩
abbrev S1x1 : Shape := ⟨2, ![1, 1]⟩
abbrev S16x256x1 : Shape := ⟨3, ![16, 256, 1]⟩
abbrev S16x256 : Shape := ⟨2, ![16, 256]⟩

abbrev nBuf : Space → Nat
  | .hbm => 9
  | .vmem => 12
  | .smem => 0
  | _ => 0

abbrev bufTy : (tb : Table) → Fin (tcTables nBuf tb) → BufTy
  | .hbm, ⟨0, _⟩ => ⟨S8x256x64, .f32⟩
  | .hbm, ⟨1, _⟩ => ⟨S8x256x64, .f32⟩
  | .hbm, ⟨2, _⟩ => ⟨S256x64, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S8x256x256, .f32⟩
  | .local _ .vmem, ⟨0, _⟩ => ⟨S1x16x64, .f32⟩
  | .local _ .vmem, ⟨1, _⟩ => ⟨S1x16x64, .f32⟩
  | .local _ .vmem, ⟨2, _⟩ => ⟨S1x256x64, .f32⟩
  | .local _ .vmem, ⟨3, _⟩ => ⟨S1x256x64, .f32⟩
  | .local _ .vmem, ⟨4, _⟩ => ⟨S256x64, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S1x256, .f32⟩
  | .local _ .vmem, ⟨9, _⟩ => ⟨S1, .f32⟩
  | .local _ .vmem, ⟨10, _⟩ => ⟨S1x16x256, .f32⟩
  | .local _ .vmem, ⟨11, _⟩ => ⟨S1x16x256, .f32⟩
  | _, _ => ⟨S8x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  inb_S1x16x64_S1x16x64_0_0_0 : ∀ a, (![0, 0, 0] : Fin 3 → Nat) a + S1x16x64.size a ≤ S1x16x64.size a
  h_S1x16x64 : 0 < S1x16x64.numel
  shapeCasts_S1x16x64_S16x64 : S1x16x64.ShapeCasts S16x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S16x64_S16x1x64 : S16x64.ShapeCasts S16x1x64
  shapeCasts_S256x64_S1x256x64 : S256x64.ShapeCasts S1x256x64
  broadcasts_S16x1x64_S16x256x64 : S16x1x64.Broadcasts S16x256x64
  broadcasts_S1x256x64_S16x256x64 : S1x256x64.Broadcasts S16x256x64
  shapeCasts_S16x256x64_S4096x64 : S16x256x64.ShapeCasts S4096x64
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  transposes_S256x64_p1_0_S64x256 : S256x64.Transposes [1, 0] S64x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  transposes_S1x256_p1_0_S256x1 : S1x256.Transposes [1, 0] S256x1
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  shapeCasts_S4096x1_S16x256x1 : S4096x1.ShapeCasts S16x256x1
  shapeCasts_S16x256x1_S16x256 : S16x256x1.ShapeCasts S16x256
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  shapeCasts_S16x256_S1x16x256 : S16x256.ShapeCasts S1x16x256
  dot_S4096x64_S64x256_S4096x256_1_0_0_1_n_n_wf : DotDims.WF S4096x64 S64x256 S4096x256 [1] [0] [0] [1] [] []
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x64.size a ≤ S8x256x64.size a
  hwx0_0 : ∀ i : grid0.Coords, EltTy.bits .f32 = 32 ∨ (Rect.block (s := S8x256x64) S1x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S8x256x64.size a
  hwx0_1 : ∀ i : grid0.Coords, EltTy.bits .f32 = 32 ∨ (Rect.block (s := S8x256x64) S1x256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x256.size a ≤ S8x256x256.size a
  hwx0_8 : ∀ i : grid0.Coords, EltTy.bits .f32 = 32 ∨ (Rect.block (s := S8x256x256) S1x16x256.size (cc0_transform_8 i) (hinb0_8 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_arg0) S1x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x16x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x256x64 : Shape := ⟨3, ![8, 256, 64]⟩
abbrev S256x64 : Shape := ⟨2, ![256, 64]⟩
abbrev S256 : Shape := ⟨1, ![256]⟩
abbrev S256x256 : Shape := ⟨2, ![256, 256]⟩
abbrev S1x256 : Shape := ⟨2, ![1, 256]⟩
abbrev S1 : Shape := ⟨1, ![1]⟩
abbrev S8x256x1x64 : Shape := ⟨4, ![8, 256, 1, 64]⟩
abbrev S8x1x256x64 : Shape := ⟨4, ![8, 1, 256, 64]⟩
abbrev S8x256x256x64 : Shape := ⟨4, ![8, 256, 256, 64]⟩
abbrev S8x256x256x256 : Shape := ⟨4, ![8, 256, 256, 256]⟩
abbrev S1x1x1x256 : Shape := ⟨4, ![1, 1, 1, 256]⟩
abbrev S_ : Shape := ⟨0, ![]⟩
abbrev S8x256x256x1 : Shape := ⟨4, ![8, 256, 256, 1]⟩
abbrev S1x1x1x1 : Shape := ⟨4, ![1, 1, 1, 1]⟩
abbrev S8x256x256 : Shape := ⟨3, ![8, 256, 256]⟩

abbrev nBuf : Space → Nat
  | .hbm => 48
  | .vmem => 0
  | .smem => 0
  | _ => 0

abbrev bufTy : (tb : Table) → Fin (tcTables nBuf tb) → BufTy
  | .hbm, ⟨0, _⟩ => ⟨S8x256x64, .f32⟩
  | .hbm, ⟨1, _⟩ => ⟨S8x256x64, .f32⟩
  | .hbm, ⟨2, _⟩ => ⟨S256x64, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S8x256x1x64, .f32⟩
  | .hbm, ⟨9, _⟩ => ⟨S8x1x256x64, .f32⟩
  | .hbm, ⟨10, _⟩ => ⟨S8x256x256x64, .f32⟩
  | .hbm, ⟨11, _⟩ => ⟨S8x256x256x64, .f32⟩
  | .hbm, ⟨12, _⟩ => ⟨S8x256x256x64, .f32⟩
  | .hbm, ⟨13, _⟩ => ⟨S8x256x256x256, .f32⟩
  | .hbm, ⟨14, _⟩ => ⟨S1x1x1x256, .f32⟩
  | .hbm, ⟨15, _⟩ => ⟨S8x256x256x256, .f32⟩
  | .hbm, ⟨16, _⟩ => ⟨S8x256x256x256, .f32⟩
  | .hbm, ⟨17, _⟩ => ⟨S_, .f32⟩
  | .hbm, ⟨18, _⟩ => ⟨S8x256x256x256, .f32⟩
  | .hbm, ⟨19, _⟩ => ⟨S8x256x256x256, .i1⟩
  | .hbm, ⟨20, _⟩ => ⟨S_, .f32⟩
  | .hbm, ⟨21, _⟩ => ⟨S8x256x256x256, .f32⟩
  | .hbm, ⟨22, _⟩ => ⟨S8x256x256x256, .f32⟩
  | .hbm, ⟨23, _⟩ => ⟨S8x256x256x256, .f32⟩
  | .hbm, ⟨24, _⟩ => ⟨S8x256x256x256, .f32⟩
  | .hbm, ⟨25, _⟩ => ⟨S1x1x1x256, .f32⟩
  | .hbm, ⟨26, _⟩ => ⟨S8x256x256x256, .f32⟩
  | .hbm, ⟨27, _⟩ => ⟨S8x256x256x256, .f32⟩
  | .hbm, ⟨28, _⟩ => ⟨S_, .f32⟩
  | .hbm, ⟨29, _⟩ => ⟨S8x256x256x256, .f32⟩
  | .hbm, ⟨30, _⟩ => ⟨S8x256x256x256, .i1⟩
  | .hbm, ⟨31, _⟩ => ⟨S_, .f32⟩
  | .hbm, ⟨32, _⟩ => ⟨S8x256x256x256, .f32⟩
  | .hbm, ⟨33, _⟩ => ⟨S8x256x256x256, .f32⟩
  | .hbm, ⟨34, _⟩ => ⟨S8x256x256x256, .f32⟩
  | .hbm, ⟨35, _⟩ => ⟨S8x256x256x1, .f32⟩
  | .hbm, ⟨36, _⟩ => ⟨S1x1x1x1, .f32⟩
  | .hbm, ⟨37, _⟩ => ⟨S8x256x256x1, .f32⟩
  | .hbm, ⟨38, _⟩ => ⟨S8x256x256x1, .f32⟩
  | .hbm, ⟨39, _⟩ => ⟨S8x256x256x1, .f32⟩
  | .hbm, ⟨40, _⟩ => ⟨S8x256x256x1, .f32⟩
  | .hbm, ⟨41, _⟩ => ⟨S_, .f32⟩
  | .hbm, ⟨42, _⟩ => ⟨S8x256x256x1, .f32⟩
  | .hbm, ⟨43, _⟩ => ⟨S8x256x256x1, .f32⟩
  | .hbm, ⟨44, _⟩ => ⟨S_, .f32⟩
  | .hbm, ⟨45, _⟩ => ⟨S8x256x256x1, .f32⟩
  | .hbm, ⟨46, _⟩ => ⟨S8x256x256x1, .f32⟩
  | .hbm, ⟨47, _⟩ => ⟨S8x256x256, .f32⟩
  | _, _ => ⟨S8x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  bcast_S8x256x64_S8x256x1x64_0_1_3 : S8x256x64.BroadcastsInDim S8x256x1x64 (![0, 1, 3] : Fin 3 → Fin S8x256x1x64.rank)
  bcast_S8x256x64_S8x1x256x64_0_2_3 : S8x256x64.BroadcastsInDim S8x1x256x64 (![0, 2, 3] : Fin 3 → Fin S8x1x256x64.rank)
  bcast_S8x256x1x64_S8x256x256x64_0_1_2_3 : S8x256x1x64.BroadcastsInDim S8x256x256x64 (![0, 1, 2, 3] : Fin 4 → Fin S8x256x256x64.rank)
  bcast_S8x1x256x64_S8x256x256x64_0_1_2_3 : S8x1x256x64.BroadcastsInDim S8x256x256x64 (![0, 1, 2, 3] : Fin 4 → Fin S8x256x256x64.rank)
  bcast_S256_S1x1x1x256_3 : S256.BroadcastsInDim S1x1x1x256 (![3] : Fin 1 → Fin S1x1x1x256.rank)
  bcast_S1x1x1x256_S8x256x256x256_0_1_2_3 : S1x1x1x256.BroadcastsInDim S8x256x256x256 (![0, 1, 2, 3] : Fin 4 → Fin S8x256x256x256.rank)
  bcast_S_S8x256x256x256 : S_.BroadcastsInDim S8x256x256x256 (![] : Fin 0 → Fin S8x256x256x256.rank)
  bcast_S1_S1x1x1x1_3 : S1.BroadcastsInDim S1x1x1x1 (![3] : Fin 1 → Fin S1x1x1x1.rank)
  bcast_S1x1x1x1_S8x256x256x1_0_1_2_3 : S1x1x1x1.BroadcastsInDim S8x256x256x1 (![0, 1, 2, 3] : Fin 4 → Fin S8x256x256x1.rank)
  bcast_S_S8x256x256x1 : S_.BroadcastsInDim S8x256x256x1 (![] : Fin 0 → Fin S8x256x256x1.rank)
  shapeCasts_S8x256x256x1_S8x256x256 : S8x256x256x1.ShapeCasts S8x256x256
  dot_S8x256x256x64_S256x64_S8x256x256x256_3_1_012_0_n_n_wf : DotDims.WF S8x256x256x64 S256x64 S8x256x256x256 [3] [1] [0, 1, 2] [0] [] []
  dot_S8x256x256x256_S256x256_S8x256x256x256_3_1_012_0_n_n_wf : DotDims.WF S8x256x256x256 S256x256 S8x256x256x256 [3] [1] [0, 1, 2] [0] [] []
  dot_S8x256x256x256_S1x256_S8x256x256x1_3_1_012_0_n_n_wf : DotDims.WF S8x256x256x256 S1x256 S8x256x256x1 [3] [1] [0, 1, 2] [0] [] []

variable [Facts₀]

def dot_S8x256x256x64_S256x64_S8x256x256x256_3_1_012_0_n_n : DotDims S8x256x256x64 S256x64 S8x256x256x256 where
  lhsContracting := [3]
  rhsContracting := [1]
  lhsNonContracting := [0, 1, 2]
  rhsNonContracting := [0]
  lhsBatch := []
  rhsBatch := []
  wf := dot_S8x256x256x64_S256x64_S8x256x256x256_3_1_012_0_n_n_wf
def dot_S8x256x256x256_S256x256_S8x256x256x256_3_1_012_0_n_n : DotDims S8x256x256x256 S256x256 S8x256x256x256 where
  lhsContracting := [3]
  rhsContracting := [1]
  lhsNonContracting := [0, 1, 2]
  rhsNonContracting := [0]
  lhsBatch := []
  rhsBatch := []
  wf := dot_S8x256x256x256_S256x256_S8x256x256x256_3_1_012_0_n_n_wf
def dot_S8x256x256x256_S1x256_S8x256x256x1_3_1_012_0_n_n : DotDims S8x256x256x256 S1x256 S8x256x256x1 where
  lhsContracting := [3]
  rhsContracting := [1]
  lhsNonContracting := [0, 1, 2]
  rhsNonContracting := [0]
  lhsBatch := []
  rhsBatch := []
  wf := dot_S8x256x256x256_S1x256_S8x256x256x1_3_1_012_0_n_n_wf

class Facts : Prop extends Facts₀ where

variable [Facts]
-- ==== Proof.Spec.lean ====
/-
  The function both programs compute, on the extended reals, index by index.

  For a batch `n`, a query row `a` and a key row `b`, take the difference of the two feature rows,
  `d c = za (n, a, c) - zb (n, b, c)` over the 64 features, and run it through three dense layers, each
  `y g = Σₖ x k · W (g, k) + bias g`: 64 → 256 and 256 → 256 followed by the leaky rectifier (`y` where `y ≥ 0`,
  `slope · y` elsewhere, the slope the single-precision number nearest 0.01, kept as its word), then 256 → 1 followed by
  the logistic function `1 / (1 + e^(-y))`. The result array holds that number at `(n, a, b)`.
  Nothing here mentions a program; the two programs are related to `G` elsewhere.
-/
import Idealize.ShloMosaic.Lib.ValueIdx
import Idealize.ShloMosaic.PureOps.Ideal.Laws

noncomputable section

open scoped BigOperators

namespace Cert.PairMlp

open Idealize.ShloMosaic Idealize.ShloMosaic.ValueIdx

/-- The leaky rectifier: `y` itself where `y ≥ 0`, the slope times `y` elsewhere. Zero and the slope are kept as the
    words both programs print, so neither is ever evaluated. -/
def leaky (y : EReal) : EReal :=
  Scalar.select (Ideal.cmp .oge y (Ideal.ofBits .f32 0x00000000#32)) y (Ideal.ofBits .f32 0x3C23D70A#32 * y)

/-- First hidden layer at unit `g`, of a feature row `d`. -/
def hidden1 (w0 : (⟨2, ![256, 64]⟩ : Shape).Idx → EReal) (b0 : (⟨1, ![256]⟩ : Shape).Idx → EReal) (d : Fin 64 → EReal)
    (g : Fin 256) : EReal :=
  leaky ((∑ c : Fin 64, d c * w0 (ix2 g c)) + b0 (ix1 g))

/-- Second hidden layer at unit `h`. -/
def hidden2 (w0 : (⟨2, ![256, 64]⟩ : Shape).Idx → EReal) (b0 : (⟨1, ![256]⟩ : Shape).Idx → EReal)
    (w1 : (⟨2, ![256, 256]⟩ : Shape).Idx → EReal) (b1 : (⟨1, ![256]⟩ : Shape).Idx → EReal) (d : Fin 64 → EReal)
    (h : Fin 256) : EReal :=
  leaky ((∑ g : Fin 256, hidden1 w0 b0 d g * w1 (ix2 h g)) + b1 (ix1 h))

/-- The network's output for a feature row `d`: the one output unit through the logistic function. -/
def score (w0 : (⟨2, ![256, 64]⟩ : Shape).Idx → EReal) (b0 : (⟨1, ![256]⟩ : Shape).Idx → EReal)
    (w1 : (⟨2, ![256, 256]⟩ : Shape).Idx → EReal) (b1 : (⟨1, ![256]⟩ : Shape).Idx → EReal)
    (w2 : (⟨2, ![1, 256]⟩ : Shape).Idx → EReal) (b2 : (⟨1, ![1]⟩ : Shape).Idx → EReal) (d : Fin 64 → EReal) : EReal :=
  Ideal.logistic ((∑ h : Fin 256, hidden2 w0 b0 w1 b1 d h * w2 (ix2 (0 : Fin 1) h)) + b2 (ix1 (0 : Fin 1)))

/-- The feature row of the pair `(a, b)` in batch `n`: the difference of the two rows. -/
def pairRow (za zb : (⟨3, ![8, 256, 64]⟩ : Shape).Idx → EReal) (n : Fin 8) (a b : Fin 256) : Fin 64 → EReal :=
  fun c => za (ix3 n a c) - zb (ix3 n b c)

/-- THE RESULT ARRAY: at `(n, a, b)` the network's output for the pair's feature row. -/
def G (za zb : (⟨3, ![8, 256, 64]⟩ : Shape).Idx → EReal) (w0 : (⟨2, ![256, 64]⟩ : Shape).Idx → EReal)
    (b0 : (⟨1, ![256]⟩ : Shape).Idx → EReal) (w1 : (⟨2, ![256, 256]⟩ : Shape).Idx → EReal)
    (b1 : (⟨1, ![256]⟩ : Shape).Idx → EReal) (w2 : (⟨2, ![1, 256]⟩ : Shape).Idx → EReal)
    (b2 : (⟨1, ![1]⟩ : Shape).Idx → EReal) : (⟨3, ![8, 256, 256]⟩ : Shape).Idx → EReal :=
  fun i => score w0 b0 w1 b1 w2 b2 (pairRow za zb (i 0) (i 1) (i 2))

/-- The single-precision word of 1.0 is the number one. -/
theorem ofBits_one_f32 : Ideal.ofBits .f32 0x3F800000#32 = 1 := by
  simp [Ideal.ofBits, Ideal.ieee, -EReal.coe_mul]; norm_num

/-- The logistic function spelt out with the host's negation, exponential, sum and quotient, the two ones given as
    their words, is the logistic function. -/
theorem logistic_spelt (y : EReal) :
    Ideal.div (Ideal.ofBits .f32 0x3F800000#32) (Ideal.ofBits .f32 0x3F800000#32 + Ideal.exp (-y)) = Ideal.logistic y := by
  rw [ofBits_one_f32]; rfl

end Cert.PairMlp

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibDenseRow.lean ====
/-
  A dense layer's row, read at an entry on the extended reals, for any extents.

  The layer multiplies an `[R, K]` matrix of inputs by the TRANSPOSE of an `[N, K]` weight matrix (so the weight is stored
  one row per output unit), into the zero accumulator, and adds a bias vector `[N]` made a row `[1, N]` and repeated
  down the `R` rows. Entry `(r, g)` is `Σₖ A (r, k) · W (g, k) + bias g`. The three pieces are stated on their own
  too: the transposed matrix at an entry, the repeated bias row at an entry, and the product with the transposed weight.
-/
import Idealize.ShloMosaic.Lib.Pipeline.Value
import Idealize.ShloMosaic.Lib.ValueIdx
import Idealize.ShloMosaic.PureOps.Ideal.Laws
import proofs.«153166_j14302241096268_1_alg».proof.Proof.LibPlainMatmul

noncomputable section

open scoped BigOperators

namespace Cert.LibDenseRow

open Idealize.ShloMosaic Idealize.ShloMosaic.ValueIdx

variable {R K N : ℕ}

/-- The transpose of an `[N, K]` matrix at `(k, g)` is the matrix at `(g, k)`. -/
theorem transpose_at {α : Type} (W : (⟨2, ![N, K]⟩ : Shape).Idx → α)
    (h : (⟨2, ![N, K]⟩ : Shape).Transposes [1, 0] ⟨2, ![K, N]⟩) (k : Fin K) (g : Fin N) :
    transpose ⟨2, ![K, N]⟩ [1, 0] W h (ix2 k g) = W (ix2 g k) :=
  transpose_apply [1, 0] W h (ix2 k g) (ix2 g k) (fun b => match b with
    | ⟨0, _⟩ => rfl
    | ⟨1, _⟩ => rfl)

/-- A vector `[N]` made a row `[1, N]` and repeated down `R` rows reads, at `(r, g)`, the vector at `g`. -/
theorem biasRow_at {α : Type} (bias : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (g : Fin N) :
    broadcastTo ⟨2, ![R, N]⟩ (shapeCast ⟨2, ![1, N]⟩ bias hc) hb (ix2 r g) = bias (ix1 g) := by
  refine (broadcastTo_apply _ hb (ix2 r g) (ix2 (0 : Fin 1) g) (fun a => ?_)).trans ?_
  · match a with
    | ⟨0, _⟩ => show (0 : ℕ) = if (1 : ℕ) = 1 then 0 else _; rw [if_pos rfl]
    | ⟨1, _⟩ =>
      show g.val = if N = 1 then 0 else g.val
      split_ifs with h
      · have := g.isLt; omega
      · rfl
  · refine shapeCast_apply bias hc (ix2 (0 : Fin 1) g) (ix1 g) ?_
    rw [Shape.rowMajor_val_one, Shape.rowMajor_val_two]
    show g.val = 0 * N + g.val
    omega

/-- The product with a transposed weight into the zero accumulator, at `(r, g)`: `Σₖ A (r, k) · W (g, k)`. -/
theorem matmulT_at {φ₁ φ₂ : FTy} (prec : Option ContractPrecision) (A : FVec Ideal ⟨2, ![R, K]⟩ φ₁)
    (W : FVec Ideal ⟨2, ![N, K]⟩ φ₂) (h : (⟨2, ![N, K]⟩ : Shape).Transposes [1, 0] ⟨2, ![K, N]⟩) (r : Fin R) (g : Fin N) :
    FloatOps.matmul (DotDims.plain R K N) prec A (transpose ⟨2, ![K, N]⟩ [1, 0] W h)
        (constant ⟨2, ![R, N]⟩ .f32 0x00000000#32) (ix2 r g)
      = ∑ k : Fin K, A (ix2 r k) * W (ix2 g k) := by
  rw [Cert.LibPlainMatmul.matmul_zero_apply]
  exact Finset.sum_congr rfl fun k _ => by rw [transpose_at]

/-- THE DENSE ROW: the product with the transposed weight plus the repeated bias row, at `(r, g)`. -/
theorem dense_at {φ₁ φ₂ : FTy} (prec : Option ContractPrecision) (A : FVec Ideal ⟨2, ![R, K]⟩ φ₁)
    (W : FVec Ideal ⟨2, ![N, K]⟩ φ₂) (h : (⟨2, ![N, K]⟩ : Shape).Transposes [1, 0] ⟨2, ![K, N]⟩)
    (bias : FVec Ideal ⟨1, ![N]⟩ .f32) (hc : (⟨1, ![N]⟩ : Shape).ShapeCasts ⟨2, ![1, N]⟩)
    (hb : (⟨2, ![1, N]⟩ : Shape).Broadcasts ⟨2, ![R, N]⟩) (r : Fin R) (g : Fin N) :
    addf (FloatOps.matmul (DotDims.plain R K N) prec A (transpose ⟨2, ![K, N]⟩ [1, 0] W h)
        (constant ⟨2, ![R, N]⟩ .f32 0x00000000#32)) (broadcastTo ⟨2, ![R, N]⟩ (shapeCast ⟨2, ![1, N]⟩ bias hc) hb) (ix2 r g)
      = (∑ k : Fin K, A (ix2 r k) * W (ix2 g k)) + bias (ix1 g) := by
  rw [addf_apply, matmulT_at, biasRow_at]

end Cert.LibDenseRow

end
-- ==== Proof.KernelPayload.lean ====
/-
  What the kernel's body stores, read at one entry of its output block.

  At a grid point the body holds a `[1, 16, 64]` block of query rows, the batch's `[1, 256, 64]` block of key rows and
  the whole weights and biases. It lays the 16 × 256 pairs out as the rows of one `[4096, 64]` matrix — pair `(p, q)` is
  row `256 p + q`, holding query row `p` minus key row `q` —, sends that matrix through the three dense layers as matrix
  products with the transposed weights plus a repeated bias row, and folds the `[4096, 1]` result back to `[1, 16, 256]`.
  Changes of float format are the identity on the extended reals. So entry `(0, p, q)` of the stored block is the
  specification's network applied to the block's own pair row.
-/
import proofs.«153166_j14302241096268_1_alg».proof.Proof.Gen.KernelIdeal.Skeleton
import proofs.«153166_j14302241096268_1_alg».proof.Proof.Spec
import proofs.«153166_j14302241096268_1_alg».proof.Proof.LibDenseRow
import Idealize.ShloMosaic.Lib.Pipeline.Value
import Idealize.ShloMosaic.Lib.ValueIdx

noncomputable section

open scoped BigOperators

namespace Cert.KernelIdeal.Payload

open Cert.KernelIdeal Cert.KernelIdeal.Gen Cert.PairMlp Idealize.ShloMosaic Idealize.ShloMosaic.ValueIdx

/-- The pair row of a block: query row `p` of the block minus key row `q` of the batch's block. -/
def blockRow (x0 : Vec Ideal S1x16x64 .f32) (x1 : Vec Ideal S1x256x64 .f32) (p : Fin 16) (q : Fin 256) : Fin 64 → EReal :=
  fun c => x0 (ix3 (0 : Fin 1) p c) - x1 (ix3 (0 : Fin 1) q c)

/-- The rectifier as the body writes it — a select between `y` and `slope · y` on the comparison with a splat zero — read
    at an index. -/
theorem rectified_at {s : Shape} (y : FVec Ideal s .f32) (i : s.Idx) :
    select (cmpf .oge y (broadcast s (Scalar.ofBits .f32 0x00000000#32))) y
      (mulf (broadcast s (Scalar.ofBits .f32 0x3C23D70A#32)) y) i = leaky (y i) := rfl

/-- THE PAIR MATRIX: row `256 p + q` of the `[4096, 64]` matrix of differences is the block's pair row `(p, q)`. The query
    block is repeated along a new middle axis, the key block along a new leading one, and the `[16, 256, 64]` difference
    is flattened row-major. -/
theorem diff_at (x0 : Vec Ideal S1x16x64 .f32) (x1 : Vec Ideal S1x256x64 .f32)
    (h1 : S1x16x64.ShapeCasts S16x64) (h2 : S16x64.ShapeCasts S16x1x64) (h3 : S16x1x64.Broadcasts S16x256x64)
    (h4 : S1x256x64.ShapeCasts S256x64) (h5 : S256x64.ShapeCasts S1x256x64) (h6 : S1x256x64.Broadcasts S16x256x64)
    (h7 : S16x256x64.ShapeCasts S4096x64)
    (p : Fin 16) (q : Fin 256) (r : Fin 4096) (hr : r.val = p.val * 256 + q.val) (c : Fin 64) :
    shapeCast S4096x64 (subf (F := Ideal) (φ := .f32) (broadcastTo S16x256x64 (shapeCast S16x1x64 (shapeCast S16x64 x0 h1) h2) h3)
        (broadcastTo S16x256x64 (shapeCast S1x256x64 (shapeCast S256x64 x1 h4) h5) h6)) h7 (ix2 r c)
      = blockRow x0 x1 p q c := by
  refine (shapeCast_apply _ h7 (ix2 r c) (ix3 p q c) ?_).trans ?_
  · rw [Shape.rowMajor_val_three, Shape.rowMajor_val_two]
    show (p.val * 256 + q.val) * 64 + c.val = r.val * 64 + c.val
    omega
  rw [subf_apply]
  refine congrArg₂ (· - ·) ?_ ?_
  · refine (broadcastTo_apply _ h3 (ix3 p q c) (ix3 p (0 : Fin 1) c) (fun a => ?_)).trans ?_
    · match a with
      | ⟨0, _⟩ => show p.val = if (16 : ℕ) = 1 then 0 else p.val; rw [if_neg (by decide)]
      | ⟨1, _⟩ => show (0 : ℕ) = if (1 : ℕ) = 1 then 0 else q.val; rw [if_pos rfl]
      | ⟨2, _⟩ => show c.val = if (64 : ℕ) = 1 then 0 else c.val; rw [if_neg (by decide)]
    refine (shapeCast_apply _ h2 (ix3 p (0 : Fin 1) c) (ix2 p c) ?_).trans ?_
    · rw [Shape.rowMajor_val_two, Shape.rowMajor_val_three]
      show p.val * 64 + c.val = (p.val * 1 + 0) * 64 + c.val
      omega
    refine shapeCast_apply x0 h1 (ix2 p c) (ix3 (0 : Fin 1) p c) ?_
    rw [Shape.rowMajor_val_three, Shape.rowMajor_val_two]
    show (0 * 16 + p.val) * 64 + c.val = p.val * 64 + c.val
    omega
  · refine (broadcastTo_apply _ h6 (ix3 p q c) (ix3 (0 : Fin 1) q c) (fun a => ?_)).trans ?_
    · match a with
      | ⟨0, _⟩ => show (0 : ℕ) = if (1 : ℕ) = 1 then 0 else p.val; rw [if_pos rfl]
      | ⟨1, _⟩ => show q.val = if (256 : ℕ) = 1 then 0 else q.val; rw [if_neg (by decide)]
      | ⟨2, _⟩ => show c.val = if (64 : ℕ) = 1 then 0 else c.val; rw [if_neg (by decide)]
    rw [shapeCast_shapeCast]

variable (x0 : Vec Ideal S1x16x64 .f32) (x1 : Vec Ideal S1x256x64 .f32) (x2 : Vec Ideal S256x64 .f32)
  (x3 : Vec Ideal S256 .f32) (x4 : Vec Ideal S256x256 .f32) (x5 : Vec Ideal S256 .f32) (x6 : Vec Ideal S1x256 .f32)
  (x7 : Vec Ideal S1 .f32)

/-- THE TWO HIDDEN LAYERS: row `256 p + q` of the second rectified layer, at unit `h`, is the specification's second
    hidden layer of the block's pair row. -/
theorem pay2_at (p : Fin 16) (q : Fin 256) (r : Fin 4096) (hr : r.val = p.val * 256 + q.val) (h : Fin 256) :
    k0_pay2 x0 x1 x2 x3 x4 x5 (ix2 r h) = hidden2 x2 x3 x4 x5 (blockRow x0 x1 p q) h := by
  unfold k0_pay2 hidden2
  refine (rectified_at _ _).trans (congrArg leaky ?_)
  refine (Cert.LibDenseRow.dense_at (R := 4096) (K := 256) (N := 256) none _ _ _ _ _ _ r h).trans ?_
  refine congrArg (· + x5 (ix1 h)) (Finset.sum_congr rfl fun g _ => congrArg (· * x4 (ix2 h g)) ?_)
  unfold hidden1
  refine (rectified_at _ _).trans (congrArg leaky ?_)
  refine (Cert.LibDenseRow.dense_at (R := 4096) (K := 64) (N := 256) none _ _ _ _ _ _ r g).trans ?_
  refine congrArg (· + x3 (ix1 g)) (Finset.sum_congr rfl fun c _ => congrArg (· * x2 (ix2 g c)) ?_)
  exact diff_at x0 x1 _ _ _ _ _ _ _ p q r hr c

/-- THE OUTPUT LAYER AND THE FOLD BACK: entry `(0, p, q)` of the stored block is the logistic function of the output
    unit of row `256 p + q`, whatever matrix `v` the hidden layers left, given its row. -/
theorem pay1_at (v : FVec Ideal S4096x256 .bf16) (p : Fin 16) (q : Fin 256) (r : Fin 4096)
    (hr : r.val = p.val * 256 + q.val) (d : Fin 256 → EReal) (hd : ∀ h, v (ix2 r h) = d h) :
    k0_pay1 v x6 x7 (ix3 (0 : Fin 1) p q)
      = Ideal.logistic ((∑ h : Fin 256, d h * x6 (ix2 (0 : Fin 1) h)) + x7 (ix1 (0 : Fin 1))) := by
  unfold k0_pay1
  refine (shapeCast_apply _ _ (ix3 (0 : Fin 1) p q) (ix2 p q) ?_).trans ?_
  · rw [Shape.rowMajor_val_two, Shape.rowMajor_val_three]
    show p.val * 256 + q.val = (0 * 16 + p.val) * 256 + q.val
    omega
  refine (shapeCast_apply _ _ (ix2 p q) (ix3 p q (0 : Fin 1)) ?_).trans ?_
  · rw [Shape.rowMajor_val_three, Shape.rowMajor_val_two]
    show (p.val * 256 + q.val) * 1 + 0 = p.val * 256 + q.val
    omega
  refine (shapeCast_apply _ _ (ix3 p q (0 : Fin 1)) (ix2 r (0 : Fin 1)) ?_).trans ?_
  · rw [Shape.rowMajor_val_two, Shape.rowMajor_val_three]
    show r.val * 1 + 0 = (p.val * 256 + q.val) * 1 + 0
    omega
  show Ideal.logistic _ = Ideal.logistic _
  refine congrArg Ideal.logistic ?_
  refine (Cert.LibDenseRow.dense_at (R := 4096) (K := 256) (N := 1) none _ _ _ _ _ _ r (0 : Fin 1)).trans ?_
  exact congrArg (· + x7 (ix1 (0 : Fin 1))) (Finset.sum_congr rfl fun h _ => congrArg (· * x6 (ix2 (0 : Fin 1) h)) (hd h))

/-- THE STORED BLOCK AT `(0, p, q)`: the specification's network of the block's pair row `(p, q)`. -/
theorem pay_at (p : Fin 16) (q : Fin 256) :
    k0_pay1 (k0_pay2 x0 x1 x2 x3 x4 x5) x6 x7 (ix3 (0 : Fin 1) p q) = score x2 x3 x4 x5 x6 x7 (blockRow x0 x1 p q) :=
  pay1_at x6 x7 _ p q ⟨p.val * 256 + q.val, by have := p.isLt; have := q.isLt; omega⟩ rfl _
    (fun h => pay2_at x0 x1 x2 x3 x4 x5 p q _ rfl h)

end Cert.KernelIdeal.Payload

end
-- ==== Proof.KernelValue.lean ====
/-
  From the blocks the grid points write back to the whole result array.

  The grid is 8 batches by 16 tiles of 16 query rows. Point `(n, s)` is handed rows `16 s … 16 s + 15` of batch `n` of the
  queries, the whole batch `n` of the keys and the whole weights and biases, and writes back rows `16 s … 16 s + 15` of batch
  `n` of the result. So the block a point writes back is the same block of `G` of the argument arrays: its entry
  `(0, p, q)` is the network of query row `16 s + p` minus key row `q` of batch `n`, which is `G` at `(n, 16 s + p, q)`.
  Every index `(n, a, b)` of the result lies in the block of the point `(n, a / 16)`, so the array ends holding `G`.
-/
import proofs.«153166_j14302241096268_1_alg».proof.Proof.Gen.KernelIdeal.Value
import proofs.«153166_j14302241096268_1_alg».proof.Proof.KernelPayload
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value Cert.KernelIdeal.Payload Cert.PairMlp

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The body's one store covers its buffer, and every load reads a whole input block: what the output buffer holds
    after the body is the payload of the input blocks. -/
theorem out_eq (x0 : Vec Ideal S1x16x64 .f32) (x1 : Vec Ideal S1x256x64 .f32) (x2 : Vec Ideal S256x64 .f32)
    (x3 : Vec Ideal S256 .f32) (x4 : Vec Ideal S256x256 .f32) (x5 : Vec Ideal S256 .f32) (x6 : Vec Ideal S1x256 .f32)
    (x7 : Vec Ideal S1 .f32) :
    out0_8 x0 x1 x2 x3 x4 x5 x6 x7 = k0_pay1 (k0_pay2 x0 x1 x2 x3 x4 x5) x6 x7 := by
  unfold out0_8
  rw [View.canon_unit_zero hz3]
  simp only [View.ld_unit_zero (S := S1x16x64) hz3, View.ld_unit_zero (S := S1x256x64) hz3,
    View.ld_unit_zero (S := S256x64) hz2, View.ld_unit_zero (S := S256) hz1, View.ld_unit_zero (S := S256x256) hz2,
    View.ld_unit_zero (S := S1x256) hz2, View.ld_unit_zero (S := S1) hz1]

/-- The printed index maps, decided once over the 128 grid points: the query window follows the output's batch and row
    tile, the key window its batch only, the weights and biases stay at block 0; and the output's block indices stay in
    their ranges. -/
theorem idx_facts : ∀ t : Fin cfg0.N,
    win0_0.index t (0 : Fin 3) = win0_8.index t (0 : Fin 3)
    ∧ win0_0.index t (1 : Fin 3) = win0_8.index t (1 : Fin 3)
    ∧ win0_0.index t (2 : Fin 3) = 0
    ∧ win0_1.index t (0 : Fin 3) = win0_8.index t (0 : Fin 3)
    ∧ win0_1.index t (1 : Fin 3) = 0
    ∧ win0_1.index t (2 : Fin 3) = 0
    ∧ win0_8.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 3) < 8 ∧ win0_8.index t (1 : Fin 3) < 16 :=
  (by decide +kernel : ∀ t : Fin grid0.N, _)

/-- Every batch and row tile is SOME point's. -/
theorem idx_onto : ∀ (q0 : Fin 8) (q1 : Fin 16), ∃ t : Fin cfg0.N, win0_8.index t = ![q0.val, q1.val, 0] :=
  (by decide +kernel : ∀ (q0 : Fin 8) (q1 : Fin 16), ∃ t : Fin grid0.N, win0_8.index t = ![q0.val, q1.val, 0])

/-- The query block at a point: entry `(·, p, k)` is the query array at the output block's batch, row `16 s + p`. -/
theorem iblk0_at (c : Dev nD) (t : Fin cfg0.N) (x : S1x16x64.Idx) (k : S8x256x64.Idx)
    (h0 : (k 0).val = win0_8.index t (0 : Fin 3)) (h1 : (k 1).val = win0_8.index t (1 : Fin 3) * 16 + (x 1).val)
    (h2 : (k 2).val = (x 2).val) :
    (iblk m c 0 t : Vec Ideal S1x16x64 .f32) x = (m ((c : Thread nD τ).loc main_arg0) : S8x256x64.Idx → Elt Ideal .f32) k := by
  obtain ⟨e00, e01, e02, -⟩ := idx_facts t
  unfold iblk
  rw [View.read_apply]
  show V m c main_arg0 _ = m (c.tc.loc main_arg0) _
  unfold V
  congr 1
  funext a
  apply Fin.ext
  have hx : (x 0).val < 1 := (x 0).isLt
  match a with
  | ⟨0, _⟩ => show win0_0.index t 0 * 1 + 1 * (x 0).val = (k 0).val; omega
  | ⟨1, _⟩ => show win0_0.index t 1 * 16 + 1 * (x 1).val = (k 1).val; omega
  | ⟨2, _⟩ => show win0_0.index t 2 * 64 + 1 * (x 2).val = (k 2).val; omega

/-- The key block at a point: the whole of the output block's batch. -/
theorem iblk1_at (c : Dev nD) (t : Fin cfg0.N) (x : S1x256x64.Idx) (k : S8x256x64.Idx)
    (h0 : (k 0).val = win0_8.index t (0 : Fin 3)) (h1 : (k 1).val = (x 1).val) (h2 : (k 2).val = (x 2).val) :
    (iblk m c 1 t : Vec Ideal S1x256x64 .f32) x = (m ((c : Thread nD τ).loc main_arg1) : S8x256x64.Idx → Elt Ideal .f32) k := by
  obtain ⟨-, -, -, e10, e11, e12, -⟩ := idx_facts t
  unfold iblk
  rw [View.read_apply]
  show V m c main_arg1 _ = m (c.tc.loc main_arg1) _
  unfold V
  congr 1
  funext a
  apply Fin.ext
  have hx : (x 0).val < 1 := (x 0).isLt
  match a with
  | ⟨0, _⟩ => show win0_1.index t 0 * 1 + 1 * (x 0).val = (k 0).val; omega
  | ⟨1, _⟩ => show win0_1.index t 1 * 256 + 1 * (x 1).val = (k 1).val; omega
  | ⟨2, _⟩ => show win0_1.index t 2 * 64 + 1 * (x 2).val = (k 2).val; omega

/-- Window 2 is the whole of its array at every point. -/
theorem iblk2_eq (c : Dev nD) (t : Fin cfg0.N) :
    (iblk m c 2 t : Vec Ideal S256x64 .f32) = (m ((c : Thread nD τ).loc main_arg2) : S256x64.Idx → Elt Ideal .f32) := by
  obtain ⟨-, -, -, -, -, -, -, e20, e21, e3, e40, e41, e5, e60, e61, e7, -, -⟩ := idx_facts t
  funext x
  unfold iblk
  rw [View.read_apply]
  show V m c main_arg2 _ = m (c.tc.loc main_arg2) _
  unfold V
  congr 1
  funext a
  apply Fin.ext
  match a with
  | ⟨0, _⟩ => show win0_2.index t 0 * 256 + 1 * (x 0).val = (x 0).val; omega
  | ⟨1, _⟩ => show win0_2.index t 1 * 64 + 1 * (x 1).val = (x 1).val; omega

/-- Window 3 is the whole of its array at every point. -/
theorem iblk3_eq (c : Dev nD) (t : Fin cfg0.N) :
    (iblk m c 3 t : Vec Ideal S256 .f32) = (m ((c : Thread nD τ).loc main_arg3) : S256.Idx → Elt Ideal .f32) := by
  obtain ⟨-, -, -, -, -, -, -, e20, e21, e3, e40, e41, e5, e60, e61, e7, -, -⟩ := idx_facts t
  funext x
  unfold iblk
  rw [View.read_apply]
  show V m c main_arg3 _ = m (c.tc.loc main_arg3) _
  unfold V
  congr 1
  funext a
  apply Fin.ext
  match a with
  | ⟨0, _⟩ => show win0_3.index t 0 * 256 + 1 * (x 0).val = (x 0).val; omega

/-- Window 4 is the whole of its array at every point. -/
theorem iblk4_eq (c : Dev nD) (t : Fin cfg0.N) :
    (iblk m c 4 t : Vec Ideal S256x256 .f32) = (m ((c : Thread nD τ).loc main_arg4) : S256x256.Idx → Elt Ideal .f32) := by
  obtain ⟨-, -, -, -, -, -, -, e20, e21, e3, e40, e41, e5, e60, e61, e7, -, -⟩ := idx_facts t
  funext x
  unfold iblk
  rw [View.read_apply]
  show V m c main_arg4 _ = m (c.tc.loc main_arg4) _
  unfold V
  congr 1
  funext a
  apply Fin.ext
  match a with
  | ⟨0, _⟩ => show win0_4.index t 0 * 256 + 1 * (x 0).val = (x 0).val; omega
  | ⟨1, _⟩ => show win0_4.index t 1 * 256 + 1 * (x 1).val = (x 1).val; omega

/-- Window 5 is the whole of its array at every point. -/
theorem iblk5_eq (c : Dev nD) (t : Fin cfg0.N) :
    (iblk m c 5 t : Vec Ideal S256 .f32) = (m ((c : Thread nD τ).loc main_arg5) : S256.Idx → Elt Ideal .f32) := by
  obtain ⟨-, -, -, -, -, -, -, e20, e21, e3, e40, e41, e5, e60, e61, e7, -, -⟩ := idx_facts t
  funext x
  unfold iblk
  rw [View.read_apply]
  show V m c main_arg5 _ = m (c.tc.loc main_arg5) _
  unfold V
  congr 1
  funext a
  apply Fin.ext
  match a with
  | ⟨0, _⟩ => show win0_5.index t 0 * 256 + 1 * (x 0).val = (x 0).val; omega

/-- Window 6 is the whole of its array at every point. -/
theorem iblk6_eq (c : Dev nD) (t : Fin cfg0.N) :
    (iblk m c 6 t : Vec Ideal S1x256 .f32) = (m ((c : Thread nD τ).loc main_arg6) : S1x256.Idx → Elt Ideal .f32) := by
  obtain ⟨-, -, -, -, -, -, -, e20, e21, e3, e40, e41, e5, e60, e61, e7, -, -⟩ := idx_facts t
  funext x
  unfold iblk
  rw [View.read_apply]
  show V m c main_arg6 _ = m (c.tc.loc main_arg6) _
  unfold V
  congr 1
  funext a
  apply Fin.ext
  match a with
  | ⟨0, _⟩ => show win0_6.index t 0 * 1 + 1 * (x 0).val = (x 0).val; omega
  | ⟨1, _⟩ => show win0_6.index t 1 * 256 + 1 * (x 1).val = (x 1).val; omega

/-- Window 7 is the whole of its array at every point. -/
theorem iblk7_eq (c : Dev nD) (t : Fin cfg0.N) :
    (iblk m c 7 t : Vec Ideal S1 .f32) = (m ((c : Thread nD τ).loc main_arg7) : S1.Idx → Elt Ideal .f32) := by
  obtain ⟨-, -, -, -, -, -, -, e20, e21, e3, e40, e41, e5, e60, e61, e7, -, -⟩ := idx_facts t
  funext x
  unfold iblk
  rw [View.read_apply]
  show V m c main_arg7 _ = m (c.tc.loc main_arg7) _
  unfold V
  congr 1
  funext a
  apply Fin.ext
  match a with
  | ⟨0, _⟩ => show win0_7.index t 0 * 1 + 1 * (x 0).val = (x 0).val; omega

/-- The result: `G` of the argument arrays as launched. -/
abbrev result (c : Dev nD) : Buf (Elt Ideal) ((c : Thread nD τ).loc main_v0) :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- What the body leaves in the output buffer at point `t`, at entry `j`, is `G` at the index whose batch is the block's,
    whose query row is the block's tile plus `j`'s row, and whose key row is `j`'s column. -/
theorem block_at (c : Dev nD) (t : Fin cfg0.N) (j : S1x16x256.Idx) (i : S8x256x256.Idx)
    (h0 : (i 0).val = win0_8.index t (0 : Fin 3)) (h1 : (i 1).val = win0_8.index t (1 : Fin 3) * 16 + (j 1).val)
    (h2 : (i 2).val = (j 2).val) :
    out0_8 (iblk m c 0 t) (iblk m c 1 t) (iblk m c 2 t) (iblk m c 3 t) (iblk m c 4 t) (iblk m c 5 t) (iblk m c 6 t)
      (iblk m c 7 t) j = result m c i := by
  obtain ⟨u, p, q, rfl⟩ : ∃ (u : Fin 1) (p : Fin 16) (q : Fin 256), j = ix3 u p q := ⟨j 0, j 1, j 2, eq_ix3 j⟩
  obtain rfl : u = 0 := Subsingleton.elim _ _
  obtain ⟨n, a, b, rfl⟩ : ∃ (n : Fin 8) (a b : Fin 256), i = ix3 n a b := ⟨i 0, i 1, i 2, eq_ix3 i⟩
  rw [out_eq, pay_at, iblk2_eq, iblk3_eq, iblk4_eq, iblk5_eq, iblk6_eq, iblk7_eq]
  show score _ _ _ _ _ _ _ = score _ _ _ _ _ _ (pairRow _ _ n a b)
  congr 1
  funext k
  exact congrArg₂ (fun u v : EReal => u - v) (iblk0_at m c t (ix3 (0 : Fin 1) p k) (ix3 n a k) h0 h1 rfl)
    (iblk1_at m c t (ix3 (0 : Fin 1) q k) (ix3 n b k) h0 h2 rfl)

/-- An index of the array is in point `t`'s block iff each coordinate is in the block's range on its axis. -/
theorem mem_blk (t : Fin cfg0.N) (i : S8x256x256.Idx) :
    i ∈ ((cfg0.win 8).blk t).view.set ↔ ∀ a : Fin 3, win0_8.index t a * S1x16x256.size a ≤ (i a).val ∧ (i a).val < win0_8.index t a * S1x16x256.size a + S1x16x256.size a := by
  show i ∈ ((View.whole main_v0).slice (win0_8.rect t)).set ↔ _
  rw [View.set_slice_whole, Rect.mem_set_unit]
  exact Iff.rfl

/-- WHAT POINT `t` WRITES BACK is block `t` of `G` of the argument arrays. -/
theorem flushed_eq (c : Dev nD) (t : Fin cfg0.N) :
    (dats m 0 c).flushed 8 t = ((cfg0.win 8).blk t).view.read (Elt Ideal) (result m c) := by
  obtain ⟨-, -, -, -, -, -, e82, -⟩ := idx_facts t
  rw [flushed8]
  funext j
  show out0_8 (iblk m c 0 t) (iblk m c 1 t) (iblk m c 2 t) (iblk m c 3 t) (iblk m c 4 t) (iblk m c 5 t) (iblk m c 6 t)
      (iblk m c 7 t) j = result m c (((cfg0.win 8).blk t).view.emb j)
  have hj : (j 0).val < 1 := (j 0).isLt
  refine block_at m c t j _ ?_ ?_ ?_
  · show win0_8.index t 0 * 1 + 1 * (j 0).val = win0_8.index t 0; omega
  · show win0_8.index t 1 * 16 + 1 * (j 1).val = win0_8.index t 1 * 16 + (j 1).val; omega
  · show win0_8.index t 2 * 256 + 1 * (j 2).val = (j 2).val; omega

/-- THE ARRAY after the run is `G` of the argument arrays: index `(n, a, b)` lies in the block of the point whose batch
    is `n` and whose row tile is `a / 16`. -/
theorem final (c : Dev nD) : (dats m 0 c).arrAt 8 cfg0.N = result m c :=
  (dats m 0 c).arrAt_eq_of_cover 8 (result m c) (fun t _ => flushed_eq m c t) fun i => by
    have hi0 : (i 0).val < 8 := (i 0).isLt
    have hi1 : (i 1).val < 256 := (i 1).isLt
    have hi2 : (i 2).val < 256 := (i 2).isLt
    obtain ⟨t, ht⟩ := idx_onto ⟨(i 0).val, hi0⟩ ⟨(i 1).val / 16, by omega⟩
    have q0 : win0_8.index t (0 : Fin 3) = (i 0).val := congrFun ht 0
    have q1 : win0_8.index t (1 : Fin 3) = (i 1).val / 16 := congrFun ht 1
    have q2 : win0_8.index t (2 : Fin 3) = 0 := congrFun ht 2
    refine ⟨t, flush0_8 t, ?_⟩
    rw [mem_blk]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 16 ≤ (i 1).val ∧ (i 1).val < win0_8.index t (1 : Fin 3) * 16 + 16; omega
    | ⟨2, _⟩ => show win0_8.index t (2 : Fin 3) * 256 ≤ (i 2).val ∧ (i 2).val < win0_8.index t (2 : Fin 3) * 256 + 256; omega

/-- THE RUN, READ: the result array at `G` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (run_blocks m ρ)

end Cert.KernelIdeal.Hand

end
-- ==== Proof.RefIsSpec.lean ====
/-
  The reference computes `G`.

  Read one operation at a time, the reference forms the pairwise differences as a four-axis array `(n, a, b, c)`,
  contracts the last axis against each weight matrix's second axis, adds each bias along the last axis, applies the leaky
  rectifier as a select between `y` and `slope · y` on the comparison `y ≥ 0`, and at the end spells the logistic function
  as `1 / (1 + e^(-y))` before dropping the unit last axis. Layer by layer, at the coordinates `(n, a, b, unit)`, each
  stage is the specification's function of the pair's feature row; the final reshape keeps the three coordinates.
-/
import proofs.«153166_j14302241096268_1_alg».proof.Proof.Gen.ReferenceIdeal.Read
import proofs.«153166_j14302241096268_1_alg».proof.Proof.Spec

noncomputable section

open scoped BigOperators

namespace Cert.ReferenceIdeal.RefValue

open Cert.ReferenceIdeal Cert.ReferenceIdeal.Read Cert.PairMlp Idealize.ShloMosaic Idealize.ShloMosaic.ValueIdx

variable (x0 x1 : (⟨S8x256x64, .f32⟩ : BufTy).Contents (Elt Ideal)) (x2 : (⟨S256x64, .f32⟩ : BufTy).Contents (Elt Ideal))
  (x3 : (⟨S256, .f32⟩ : BufTy).Contents (Elt Ideal)) (x4 : (⟨S256x256, .f32⟩ : BufTy).Contents (Elt Ideal))
  (x5 : (⟨S256, .f32⟩ : BufTy).Contents (Elt Ideal)) (x6 : (⟨S1x256, .f32⟩ : BufTy).Contents (Elt Ideal))
  (x7 : (⟨S1, .f32⟩ : BufTy).Contents (Elt Ideal))

/-- The difference array at `(n, a, b, c)` is the pair's feature row at `c`. -/
theorem diff_at (n : Fin 8) (a b : Fin 256) (c : Fin 64) :
    val_main_v4 (F := Ideal) x0 x1 (ix4 n a b c) = pairRow x0 x1 n a b c := by
  rw [val_main_v4_apply, val_main_v2_apply, val_main_v3_apply, val_main_v0_apply, val_main_v1_apply]
  have e0 : idx_main_v0 (idx_main_v2 (ix4 n a b c)) = ix3 n a c := funext fun d => by match d with | ⟨0, _⟩ => rfl | ⟨1, _⟩ => rfl | ⟨2, _⟩ => rfl
  have e1 : idx_main_v1 (idx_main_v3 (ix4 n a b c)) = ix3 n b c := funext fun d => by match d with | ⟨0, _⟩ => rfl | ⟨1, _⟩ => rfl | ⟨2, _⟩ => rfl
  rw [e0, e1]; rfl

/-- After the first layer and its rectifier, entry `(n, a, b, g)` is the first hidden layer at unit `g`. -/
theorem layer1_at (n : Fin 8) (a b g : Fin 256) :
    val_main_v13 (F := Ideal) x0 x1 x2 x3 (ix4 n a b g) = hidden1 x2 x3 (pairRow x0 x1 n a b) g := by
  rw [val_main_v13_apply, val_main_v10_apply, val_main_v12_apply, val_main_v11_apply, val_main_cst_0_apply,
    val_main_v9_apply, val_main_cst_apply, val_main_v8_apply, val_main_v5_apply, val_main_v7_apply, val_main_v6_apply]
  have hs : (∑ k : Fin 64, val_main_v4 (F := Ideal) x0 x1 (lidx_main_v5 (ix4 n a b g) k) * x2 (ridx_main_v5 (ix4 n a b g) k))
      = ∑ c : Fin 64, pairRow x0 x1 n a b c * x2 (ix2 g c) := Finset.sum_congr rfl fun c _ => by
    have e0 : lidx_main_v5 (ix4 n a b g) c = ix4 n a b c := funext fun d => by match d with | ⟨0, _⟩ => rfl | ⟨1, _⟩ => rfl | ⟨2, _⟩ => rfl | ⟨3, _⟩ => rfl
    have e1 : ridx_main_v5 (ix4 n a b g) c = ix2 g c := funext fun d => by match d with | ⟨0, _⟩ => rfl | ⟨1, _⟩ => rfl
    rw [e0, e1, diff_at]
  have hb : idx_main_v6 (idx_main_v7 (ix4 n a b g)) = ix1 g := funext fun d => by match d with | ⟨0, _⟩ => rfl
  rw [hs, hb]; rfl

/-- After the second layer and its rectifier, entry `(n, a, b, h)` is the second hidden layer at unit `h`. -/
theorem layer2_at (n : Fin 8) (a b h : Fin 256) :
    val_main_v22 (F := Ideal) x0 x1 x2 x3 x4 x5 (ix4 n a b h) = hidden2 x2 x3 x4 x5 (pairRow x0 x1 n a b) h := by
  rw [val_main_v22_apply, val_main_v19_apply, val_main_v21_apply, val_main_v20_apply, val_main_cst_2_apply,
    val_main_v18_apply, val_main_cst_1_apply, val_main_v17_apply, val_main_v14_apply, val_main_v16_apply, val_main_v15_apply]
  have hs : (∑ k : Fin 256, val_main_v13 (F := Ideal) x0 x1 x2 x3 (lidx_main_v14 (ix4 n a b h) k) * x4 (ridx_main_v14 (ix4 n a b h) k))
      = ∑ g : Fin 256, hidden1 x2 x3 (pairRow x0 x1 n a b) g * x4 (ix2 h g) := Finset.sum_congr rfl fun g _ => by
    have e0 : lidx_main_v14 (ix4 n a b h) g = ix4 n a b g := funext fun d => by match d with | ⟨0, _⟩ => rfl | ⟨1, _⟩ => rfl | ⟨2, _⟩ => rfl | ⟨3, _⟩ => rfl
    have e1 : ridx_main_v14 (ix4 n a b h) g = ix2 h g := funext fun d => by match d with | ⟨0, _⟩ => rfl | ⟨1, _⟩ => rfl
    rw [e0, e1, layer1_at]
  have hb : idx_main_v15 (idx_main_v16 (ix4 n a b h)) = ix1 h := funext fun d => by match d with | ⟨0, _⟩ => rfl
  rw [hs, hb]; rfl

/-- The quotient that ends the reference, at `(n, a, b, 0)`, is the network's output for the pair. -/
theorem out_at (n : Fin 8) (a b : Fin 256) :
    val_main_v32 (F := Ideal) x0 x1 x2 x3 x4 x5 x6 x7 (ix4 n a b (0 : Fin 1)) = score x2 x3 x4 x5 x6 x7 (pairRow x0 x1 n a b) := by
  rw [val_main_v32_apply, val_main_v31_apply, val_main_cst_4_apply, val_main_v30_apply, val_main_v29_apply,
    val_main_cst_3_apply, val_main_v28_apply, val_main_v27_apply, val_main_v26_apply, val_main_v23_apply,
    val_main_v25_apply, val_main_v24_apply]
  have hs : (∑ k : Fin 256, val_main_v22 (F := Ideal) x0 x1 x2 x3 x4 x5 (lidx_main_v23 (ix4 n a b (0 : Fin 1)) k)
        * x6 (ridx_main_v23 (ix4 n a b (0 : Fin 1)) k))
      = ∑ h : Fin 256, hidden2 x2 x3 x4 x5 (pairRow x0 x1 n a b) h * x6 (ix2 (0 : Fin 1) h) := Finset.sum_congr rfl fun h _ => by
    have e0 : lidx_main_v23 (ix4 n a b (0 : Fin 1)) h = ix4 n a b h := funext fun d => by match d with | ⟨0, _⟩ => rfl | ⟨1, _⟩ => rfl | ⟨2, _⟩ => rfl | ⟨3, _⟩ => rfl
    have e1 : ridx_main_v23 (ix4 n a b (0 : Fin 1)) h = ix2 (0 : Fin 1) h := funext fun d => by match d with | ⟨0, _⟩ => rfl | ⟨1, _⟩ => rfl
    rw [e0, e1, layer2_at]
  have hb : idx_main_v24 (idx_main_v25 (ix4 n a b (0 : Fin 1))) = ix1 (0 : Fin 1) := funext fun d => by match d with | ⟨0, _⟩ => rfl
  rw [hs, hb]
  exact logistic_spelt _

/-- THE REFERENCE IS `G`: the reshape that drops the unit axis keeps `(n, a, b)`. -/
theorem ref_eq : val_main_v33 (F := Ideal) x0 x1 x2 x3 x4 x5 x6 x7 = G x0 x1 x2 x3 x4 x5 x6 x7 := by
  funext i
  obtain ⟨n, a, b, rfl⟩ : ∃ (n : Fin 8) (a b : Fin 256), i = ix3 n a b := ⟨i 0, i 1, i 2, eq_ix3 i⟩
  rw [val_main_v33_apply]
  have e : idx_main_v33 (ix3 n a b) = ix4 n a b (0 : Fin 1) := funext fun d => Fin.ext (by
    have h0 : n.val < 8 := n.isLt
    have h1 : a.val < 256 := a.isLt
    have h2 : b.val < 256 := b.isLt
    match d with
    | ⟨0, _⟩ => show ((n.val * 256 + a.val) * 256 + b.val) / 65536 = n.val; omega
    | ⟨1, _⟩ => show ((n.val * 256 + a.val) * 256 + b.val) / 256 % 256 = a.val; omega
    | ⟨2, _⟩ => show ((n.val * 256 + a.val) * 256 + b.val) / 1 % 256 = b.val; omega
    | ⟨3, _⟩ => rfl)
  rw [e, out_at]; rfl

end Cert.ReferenceIdeal.RefValue

end
-- ==== Proof.lean ====
/-
  For each of 8 batches, every pair of a query row `a` and a key row `b` (256 of each, 64 features) is scored by a small
  network applied to the difference of the two rows: two dense layers of 256 units with the leaky rectifier, then one
  output unit through the logistic function. The result array holds the score at `(batch, a, b)`.

  The kernel tiles the query rows sixteen at a time over an 8 × 16 grid; at a point it lays the tile's 16 × 256 pairs out
  as the 4096 rows of one matrix and runs the three layers as matrix products with the transposed weights, in a narrower
  float format between layers, ending with the built-in logistic. The reference forms all pairwise differences as one
  four-axis array, contracts against each weight matrix, and spells the logistic as `1 / (1 + e^(-y))`.

  On the extended reals a change of float format is the identity, a product into a zero accumulator and a contraction
  are the same finite sum, and the built-in logistic is by definition that quotient; the two programs share the
  rectifier's slope as one and the same word. So both result arrays are one function `G` of the arguments, index by
  index (Proof/Spec.lean): the reference by reading its operations one at a time (Proof/RefIsSpec.lean), the kernel by
  reading its stored block at an entry (Proof/KernelPayload.lean) and then assembling the blocks the grid points write
  back (Proof/KernelValue.lean). No algebraic law beyond re-indexing the sums is used, so the finiteness of the inputs
  is never opened. The idealization rewrote nothing, so that conjunct is trivial; the three frames are the generated
  ones, the reference's being its generated run with the result dropped.
-/
import proofs.«153166_j14302241096268_1_alg».proof.Defs
import proofs.«153166_j14302241096268_1_alg».proof.Proof.Gen.Kernel
import proofs.«153166_j14302241096268_1_alg».proof.Proof.Gen.Kernel.Skeleton
import proofs.«153166_j14302241096268_1_alg».proof.Proof.Gen.Kernel.Launch
import proofs.«153166_j14302241096268_1_alg».proof.Proof.Gen.Kernel.Points
import proofs.«153166_j14302241096268_1_alg».proof.Proof.Gen.Kernel.Frame
import proofs.«153166_j14302241096268_1_alg».proof.Proof.Gen.KernelIdeal
import proofs.«153166_j14302241096268_1_alg».proof.Proof.Gen.KernelIdeal.Skeleton
import proofs.«153166_j14302241096268_1_alg».proof.Proof.Gen.KernelIdeal.Launch
import proofs.«153166_j14302241096268_1_alg».proof.Proof.Gen.KernelIdeal.Points
import proofs.«153166_j14302241096268_1_alg».proof.Proof.Gen.KernelIdeal.Frame
import proofs.«153166_j14302241096268_1_alg».proof.Proof.Gen.ReferenceIdeal
import proofs.«153166_j14302241096268_1_alg».proof.Proof.Gen.Pre_finite_inputs
import proofs.«153166_j14302241096268_1_alg».proof.Proof.Gen.KernelIdeal.Value
import proofs.«153166_j14302241096268_1_alg».proof.Proof.Gen.ReferenceIdeal.Run
import proofs.«153166_j14302241096268_1_alg».proof.Proof.Gen.ReferenceIdeal.Read
import proofs.«153166_j14302241096268_1_alg».proof.Proof.KernelValue
import proofs.«153166_j14302241096268_1_alg».proof.Proof.RefIsSpec
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its generated run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at `G` of the (agreeing) arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v33_eq, Cert.ReferenceIdeal.RefValue.ref_eq, e0, e1, e2, e3, e4, e5, e6, e7]

theorem claim : Cert.Claim := ⟨Cert.Kernel.Gen.facts, Cert.KernelIdeal.Gen.facts, Cert.ReferenceIdeal.Gen.facts,
  Cert.Pre_finite_inputs.Gen.facts, frame_kernel, frame_kernelIdeal, frame_reference, preserves, algebraic⟩

end Cert.Proof

end
